-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x42 : Shape := ⟨2, ![524288, 42]⟩
abbrev S7x111 : Shape := ⟨2, ![7, 111]⟩
abbrev S7 : Shape := ⟨1, ![7]⟩
abbrev S_ : Shape := ⟨0, ![]⟩

class Facts : Prop where
  bcast_S_S524288x42 : S_.BroadcastsInDim S524288x42 (![] : Fin 0 → Fin S524288x42.rank)
  reducesTo_S524288x42_S_d0_1 : S524288x42.ReducesTo [0, 1] S_
  h_S_ : 0 < S_.numel
  bcast_S_S7x111 : S_.BroadcastsInDim S7x111 (![] : Fin 0 → Fin S7x111.rank)
  reducesTo_S7x111_S_d0_1 : S7x111.ReducesTo [0, 1] S_
  bcast_S_S7 : S_.BroadcastsInDim S7 (![] : Fin 0 → Fin S7.rank)
  reducesTo_S7_S_d0 : S7.ReducesTo [0] S_

variable [Facts]

def fn {F : FTy → Type} [FloatOps F] (main_arg0 : FVec F S524288x42 .f32) (main_arg1 : FVec F S7x111 .f32) (main_arg2 : FVec F S7 .f32) : IVec S_ 1 :=
  let main_v0 : FVec F S524288x42 .f32 := Host.absf main_arg0
  let main_cst : FVec F S_ .f32 := constant S_ .f32 0x7F800000#32
  let main_v1 : FVec F S524288x42 .f32 := broadcastInDim S524288x42 ![] bcast_S_S524288x42 main_cst
  let main_v2 : IVec S524288x42 1 := cmpf .olt main_v0 main_v1
  let main_c : IVec S_ 1 := constantI S_ 1 1#1
  let main_v3 : IVec S_ 1 := (fun x v => Host.reduce IntOp.andi x v reducesTo_S524288x42_S_d0_1 h_S_) main_v2 main_c
  let main_v4 : FVec F S7x111 .f32 := Host.absf main_arg1
  let main_cst_0 : FVec F S_ .f32 := constant S_ .f32 0x7F800000#32
  let main_v5 : FVec F S7x111 .f32 := broadcastInDim S7x111 ![] bcast_S_S7x111 main_cst_0
  let main_v6 : IVec S7x111 1 := cmpf .olt main_v4 main_v5
  let main_c_1 : IVec S_ 1 := constantI S_ 1 1#1
  let main_v7 : IVec S_ 1 := (fun x v => Host.reduce IntOp.andi x v reducesTo_S7x111_S_d0_1 h_S_) main_v6 main_c_1
  let main_v8 : IVec S_ 1 := andi main_v3 main_v7
  let main_v9 : FVec F S7 .f32 := Host.absf main_arg2
  let main_cst_2 : FVec F S_ .f32 := constant S_ .f32 0x7F800000#32
  let main_v10 : FVec F S7 .f32 := broadcastInDim S7 ![] bcast_S_S7 main_cst_2
  let main_v11 : IVec S7 1 := cmpf .olt main_v9 main_v10
  let main_c_3 : IVec S_ 1 := constantI S_ 1 1#1
  let main_v12 : IVec S_ 1 := (fun x v => Host.reduce IntOp.andi x v reducesTo_S7_S_d0 h_S_) main_v11 main_c_3
  let main_v13 : IVec S_ 1 := andi main_v8 main_v12
  main_v13
-- ==== Kernel.lean ====
abbrev S524288x42 : Shape := ⟨2, ![524288, 42]⟩
abbrev S7x111 : Shape := ⟨2, ![7, 111]⟩
abbrev S7 : Shape := ⟨1, ![7]⟩
abbrev S69x42 : Shape := ⟨2, ![69, 42]⟩
abbrev S7x42 : Shape := ⟨2, ![7, 42]⟩
abbrev S7x69 : Shape := ⟨2, ![7, 69]⟩
abbrev S42x7 : Shape := ⟨2, ![42, 7]⟩
abbrev S42x69 : Shape := ⟨2, ![42, 69]⟩
abbrev S69x7 : Shape := ⟨2, ![69, 7]⟩
abbrev S1x7 : Shape := ⟨2, ![1, 7]⟩
abbrev S524288x7 : Shape := ⟨2, ![524288, 7]⟩
abbrev S8192x42 : Shape := ⟨2, ![8192, 42]⟩
abbrev S8192x7 : Shape := ⟨2, ![8192, 7]⟩

abbrev nBuf : Space → Nat
  | .hbm => 13
  | .vmem => 6
  | .smem => 0
  | _ => 0

abbrev bufTy : (tb : Table) → Fin (tcTables nBuf tb) → BufTy
  | .hbm, ⟨0, _⟩ => ⟨S524288x42, .f32⟩
  | .hbm, ⟨1, _⟩ => ⟨S7x111, .f32⟩
  | .hbm, ⟨2, _⟩ => ⟨S7, .f32⟩
  | .hbm, ⟨3, _⟩ => ⟨S69x42, .f32⟩
  | .hbm, ⟨4, _⟩ => ⟨S7x42, .f32⟩
  | .hbm, ⟨5, _⟩ => ⟨S7x69, .f32⟩
  | .hbm, ⟨6, _⟩ => ⟨S42x7, .f32⟩
  | .hbm, ⟨7, _⟩ => ⟨S42x69, .f32⟩
  | .hbm, ⟨8, _⟩ => ⟨S69x7, .f32⟩
  | .hbm, ⟨9, _⟩ => ⟨S42x7, .f32⟩
  | .hbm, ⟨10, _⟩ => ⟨S42x7, .f32⟩
  | .hbm, ⟨11, _⟩ => ⟨S1x7, .f32⟩
  | .hbm, ⟨12, _⟩ => ⟨S524288x7, .f32⟩
  | .local _ .vmem, ⟨0, _⟩ => ⟨S8192x42, .f32⟩
  | .local _ .vmem, ⟨1, _⟩ => ⟨S8192x42, .f32⟩
  | .local _ .vmem, ⟨2, _⟩ => ⟨S42x7, .f32⟩
  | .local _ .vmem, ⟨3, _⟩ => ⟨S1x7, .f32⟩
  | .local _ .vmem, ⟨4, _⟩ => ⟨S8192x7, .f32⟩
  | .local _ .vmem, ⟨5, _⟩ => ⟨S8192x7, .f32⟩
  | _, _ => ⟨S524288x42, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x42 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S42x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x7 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S7x111_S7x42_0_0 : S7x111.Slices ![0, 0] S7x42
  slices_S7x111_S7x69_0_42 : S7x111.Slices ![0, 42] S7x69
  transposes_S7x42_S42x7_1_0 : S7x42.Transposes [1, 0] S42x7
  transposes_S69x42_S42x69_1_0 : S69x42.Transposes [1, 0] S42x69
  transposes_S7x69_S69x7_1_0 : S7x69.Transposes [1, 0] S69x7
  shapeCasts_S7_S1x7 : S7.ShapeCasts S1x7
  inb_S8192x42_S8192x42_0_0 : ∀ a, (![0, 0] : Fin 2 → Nat) a + S8192x42.size a ≤ S8192x42.size a
  h_S8192x42 : 0 < S8192x42.numel
  bitsLt_bf16_f32 : FTy.bits .bf16 < FTy.bits .f32
  inb_S42x7_S42x7_0_0 : ∀ a, (![0, 0] : Fin 2 → Nat) a + S42x7.size a ≤ S42x7.size a
  h_S42x7 : 0 < S42x7.numel
  shapeCasts_S42x7_S42x7 : S42x7.ShapeCasts S42x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S8192x7 : S1x7.Broadcasts S8192x7
  inb_S8192x7_S8192x7_0_0 : ∀ a, (![0, 0] : Fin 2 → Nat) a + S8192x7.size a ≤ S8192x7.size a
  h_S8192x7 : 0 < S8192x7.numel
  dot_S42x69_S69x7_S42x7_1_0_0_1_n_n_wf : DotDims.WF S42x69 S69x7 S42x7 [1] [0] [0] [1] [] []
  dot_S8192x42_S42x7_S8192x7_1_0_0_1_n_n_wf : DotDims.WF S8192x42 S42x7 S8192x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x42.size a ≤ S524288x42.size a
  hwx0_0 : ∀ i : grid0.Coords, EltTy.bits .f32 = 32 ∨ (Rect.block (s := S524288x42) S8192x42.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S42x7.size a ≤ S42x7.size a
  hwx0_1 : ∀ i : grid0.Coords, EltTy.bits .f32 = 32 ∨ (Rect.block (s := S42x7) S42x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x7.size a ≤ S1x7.size a
  hwx0_2 : ∀ i : grid0.Coords, EltTy.bits .f32 = 32 ∨ (Rect.block (s := S1x7) S1x7.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x7.size a ≤ S524288x7.size a
  hwx0_3 : ∀ i : grid0.Coords, EltTy.bits .f32 = 32 ∨ (Rect.block (s := S524288x7) S8192x7.size (cc0_transform_3 i) (hinb0_3 i)).WholeWords (EltTy.packing .f32)

variable [Facts₀]

def dot_S42x69_S69x7_S42x7_1_0_0_1_n_n : DotDims S42x69 S69x7 S42x7 where
  lhsContracting := [1]
  rhsContracting := [0]
  lhsNonContracting := [0]
  rhsNonContracting := [1]
  lhsBatch := []
  rhsBatch := []
  wf := dot_S42x69_S69x7_S42x7_1_0_0_1_n_n_wf
def dot_S8192x42_S42x7_S8192x7_1_0_0_1_n_n : DotDims S8192x42 S42x7 S8192x7 where
  lhsContracting := [1]
  rhsContracting := [0]
  lhsNonContracting := [0]
  rhsNonContracting := [1]
  lhsBatch := []
  rhsBatch := []
  wf := dot_S8192x42_S42x7_S8192x7_1_0_0_1_n_n_wf

abbrev win0_0 : Pipeline.Window sig grid0 :=
  Pipeline.Window.ofSpec (Memref.whole main_arg0) S8192x42.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v6) S42x7.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v7) S1x7.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8192x7.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S524288x42 : Shape := ⟨2, ![524288, 42]⟩
abbrev S7x111 : Shape := ⟨2, ![7, 111]⟩
abbrev S7 : Shape := ⟨1, ![7]⟩
abbrev S69x42 : Shape := ⟨2, ![69, 42]⟩
abbrev S42x69 : Shape := ⟨2, ![42, 69]⟩
abbrev S524288x69 : Shape := ⟨2, ![524288, 69]⟩
abbrev S524288x111 : Shape := ⟨2, ![524288, 111]⟩
abbrev S111x7 : Shape := ⟨2, ![111, 7]⟩
abbrev S524288x7 : Shape := ⟨2, ![524288, 7]⟩
abbrev S1x7 : Shape := ⟨2, ![1, 7]⟩

abbrev nBuf : Space → Nat
  | .hbm => 12
  | .vmem => 0
  | .smem => 0
  | _ => 0

abbrev bufTy : (tb : Table) → Fin (tcTables nBuf tb) → BufTy
  | .hbm, ⟨0, _⟩ => ⟨S524288x42, .f32⟩
  | .hbm, ⟨1, _⟩ => ⟨S7x111, .f32⟩
  | .hbm, ⟨2, _⟩ => ⟨S7, .f32⟩
  | .hbm, ⟨3, _⟩ => ⟨S69x42, .f32⟩
  | .hbm, ⟨4, _⟩ => ⟨S42x69, .f32⟩
  | .hbm, ⟨5, _⟩ => ⟨S524288x69, .f32⟩
  | .hbm, ⟨6, _⟩ => ⟨S524288x111, .f32⟩
  | .hbm, ⟨7, _⟩ => ⟨S111x7, .f32⟩
  | .hbm, ⟨8, _⟩ => ⟨S524288x7, .f32⟩
  | .hbm, ⟨9, _⟩ => ⟨S1x7, .f32⟩
  | .hbm, ⟨10, _⟩ => ⟨S524288x7, .f32⟩
  | .hbm, ⟨11, _⟩ => ⟨S524288x7, .f32⟩
  | _, _ => ⟨S524288x42, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  transposes_S69x42_S42x69_1_0 : S69x42.Transposes [1, 0] S42x69
  concatenates_S524288x42_S524288x69_S524288x111_d1 : Shape.Concatenates [S524288x42, S524288x69] S524288x111 1
  transposes_S7x111_S111x7_1_0 : S7x111.Transposes [1, 0] S111x7
  bcast_S7_S1x7_1 : S7.BroadcastsInDim S1x7 (![1] : Fin 1 → Fin S1x7.rank)
  bcast_S1x7_S524288x7_0_1 : S1x7.BroadcastsInDim S524288x7 (![0, 1] : Fin 2 → Fin S524288x7.rank)
  dot_S524288x42_S42x69_S524288x69_1_0_0_1_n_n_wf : DotDims.WF S524288x42 S42x69 S524288x69 [1] [0] [0] [1] [] []
  dot_S524288x111_S111x7_S524288x7_1_0_0_1_n_n_wf : DotDims.WF S524288x111 S111x7 S524288x7 [1] [0] [0] [1] [] []

variable [Facts₀]

def dot_S524288x42_S42x69_S524288x69_1_0_0_1_n_n : DotDims S524288x42 S42x69 S524288x69 where
  lhsContracting := [1]
  rhsContracting := [0]
  lhsNonContracting := [0]
  rhsNonContracting := [1]
  lhsBatch := []
  rhsBatch := []
  wf := dot_S524288x42_S42x69_S524288x69_1_0_0_1_n_n_wf
def dot_S524288x111_S111x7_S524288x7_1_0_0_1_n_n : DotDims S524288x111 S111x7 S524288x7 where
  lhsContracting := [1]
  rhsContracting := [0]
  lhsNonContracting := [0]
  rhsNonContracting := [1]
  lhsBatch := []
  rhsBatch := []
  wf := dot_S524288x111_S111x7_S524288x7_1_0_0_1_n_n_wf

class Facts : Prop extends Facts₀ where

variable [Facts]
-- ==== Proof.RefRun.lean ====
/-
  The reference's program read back as a straight line of ten host operations: the table of window masks as a
  constant, its transpose, the product of the positions with it (the window sums), the positions and the sums
  laid side by side, the transpose of the weights, the product of the joined features with it, the bias broadcast
  over the rows, and the sum.  Every weakly fair execution ends with the result buffer at that composed term of
  the three arguments, and the arguments as they were.
-/
import proofs.«170957_j22376779612772_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The table of window masks: row `j` marks the board cells of window `j`. -/
def maskTable : (⟨S69x42, .f32⟩ : BufTy).Contents (Elt F) := fun i => FloatOps.ofBits .f32 (lit0 (S69x42.rowMajor i))

/-- The positions and their window sums side by side: `[x | x · maskᵀ]`. -/
def joined (x : (⟨S524288x42, .f32⟩ : BufTy).Contents (Elt F)) (s : (⟨S524288x69, .f32⟩ : BufTy).Contents (Elt F)) :
    (⟨S524288x111, .f32⟩ : BufTy).Contents (Elt F) :=
  concatenate S524288x111 1 [⟨S524288x42, x⟩, ⟨S524288x69, s⟩] concatenates_S524288x42_S524288x69_S524288x111_d1

/-- The reference's result as one term of its three arguments. -/
def result (x : (⟨S524288x42, .f32⟩ : BufTy).Contents (Elt F)) (w : (⟨S7x111, .f32⟩ : BufTy).Contents (Elt F))
    (b : (⟨S7, .f32⟩ : BufTy).Contents (Elt F)) : (⟨S524288x7, .f32⟩ : BufTy).Contents (Elt F) :=
  addf
    (Host.dotGeneral dot_S524288x111_S111x7_S524288x7_1_0_0_1_n_n none
      (joined x (Host.dotGeneral dot_S524288x42_S42x69_S524288x69_1_0_0_1_n_n none x
        (transpose S42x69 [1, 0] (maskTable (F := F)) transposes_S69x42_S42x69_1_0)))
      (transpose S111x7 [1, 0] w transposes_S7x111_S111x7_1_0))
    (broadcastInDim S524288x7 ![0, 1] bcast_S1x7_S524288x7_0_1 (broadcastInDim S1x7 ![1] bcast_S7_S1x7_1 b))

/-- @main's ten operations, in order. -/
abbrev ops : List (HloOp τ sig (Elt F)) :=
  [ nullary main_cst (maskTable (F := F)),
    unary main_cst main_v0 ((transpose S42x69 [1, 0] · transposes_S69x42_S42x69_1_0) : (⟨S69x42, .f32⟩ : BufTy).Contents (Elt F) → (⟨S42x69, .f32⟩ : BufTy).Contents (Elt F)),
    binary main_arg0 main_v0 main_v1 ((fun l r => Host.dotGeneral dot_S524288x42_S42x69_S524288x69_1_0_0_1_n_n none l r) : (⟨S524288x42, .f32⟩ : BufTy).Contents (Elt F) → (⟨S42x69, .f32⟩ : BufTy).Contents (Elt F) → (⟨S524288x69, .f32⟩ : BufTy).Contents (Elt F)),
    binary main_arg0 main_v1 main_v2 (joined : (⟨S524288x42, .f32⟩ : BufTy).Contents (Elt F) → (⟨S524288x69, .f32⟩ : BufTy).Contents (Elt F) → (⟨S524288x111, .f32⟩ : BufTy).Contents (Elt F)),
    unary main_arg1 main_v3 ((transpose S111x7 [1, 0] · transposes_S7x111_S111x7_1_0) : (⟨S7x111, .f32⟩ : BufTy).Contents (Elt F) → (⟨S111x7, .f32⟩ : BufTy).Contents (Elt F)),
    binary main_v2 main_v3 main_v4 ((fun l r => Host.dotGeneral dot_S524288x111_S111x7_S524288x7_1_0_0_1_n_n none l r) : (⟨S524288x111, .f32⟩ : BufTy).Contents (Elt F) → (⟨S111x7, .f32⟩ : BufTy).Contents (Elt F) → (⟨S524288x7, .f32⟩ : BufTy).Contents (Elt F)),
    unary main_arg2 main_v5 (broadcastInDim S1x7 ![1] bcast_S7_S1x7_1 : (⟨S7, .f32⟩ : BufTy).Contents (Elt F) → (⟨S1x7, .f32⟩ : BufTy).Contents (Elt F)),
    unary main_v5 main_v6 (broadcastInDim S524288x7 ![0, 1] bcast_S1x7_S524288x7_0_1 : (⟨S1x7, .f32⟩ : BufTy).Contents (Elt F) → (⟨S524288x7, .f32⟩ : BufTy).Contents (Elt F)),
    binary main_v4 main_v6 main_v7 (addf : (⟨S524288x7, .f32⟩ : BufTy).Contents (Elt F) → (⟨S524288x7, .f32⟩ : BufTy).Contents (Elt F) → (⟨S524288x7, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., binary_bufs_sub .., unary_bufs_sub .., binary_bufs_sub ..,
    unary_bufs_sub .., unary_bufs_sub .., binary_bufs_sub ..⟩

/-- Every weakly fair execution of the reference ends with its result buffer at `result` of the launch contents of
    the three arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v7).trans (by unfold result; after_results),
      (h c main_arg0).trans (by after_results),
      (h c main_arg1).trans (by after_results),
      (h c main_arg2).trans (by after_results)⟩)
    (run_seq scopedRefs_eq scopedSems_eq defs main (fun _ => ops) main_eq (fun _ => ops_sub) m ρ)

end Cert.ReferenceIdeal.RefRun

end
-- ==== Proof.LibPlainDot.lean ====
/-
  A plain matrix product's contraction read as a sum over the middle coordinate.  For dimension numbers that contract
  the left operand's second axis against the right operand's first, with no batch axis — an [M,K] by [K,N] product —
  the left operand's index at result position (a, b) and contraction position q is (a, q), the right operand's is
  (q, b), and so the contraction's sum over the one-axis contraction shape is the sum over q of L (a, q) · R (q, b).
  Stated for any such dimension-number record, whatever proof of well-formedness it carries, and for any extents.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat} (d : DotDims ⟨2, ![M, K]⟩ ⟨2, ![K, N]⟩ ⟨2, ![M, N]⟩)

/-- One axis is contracted. -/
theorem contr_rank (hlc : d.lhsContracting = [1]) : d.contr.rank = 1 := by rw [d.rank_contr, hlc]; rfl

/-- Its extent is the middle extent. -/
theorem contr_size (hlc : d.lhsContracting = [1]) :
    d.contr.size ⟨0, by rw [contr_rank d hlc]; exact Nat.one_pos⟩ = K := by
  obtain ⟨lc, rc, ln, rn, lb, rb, wf⟩ := d
  dsimp only at hlc
  subst hlc
  simp [DotDims.contr]

/-- The left operand is read at (row of the result, contraction position). -/
theorem lhs_plain (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (q : Fin K) :
    d.lhsIdx (ix2 a b) ((contrEquiv1 d K (contr_rank d hlc) (contr_size d hlc)).symm q) = ix2 a q := by
  funext ax
  apply Fin.ext
  match ax with
  | ⟨1, _⟩ =>
    have h := DotDims.lhsIdx_val_of_single d (cl := (1 : Fin 2)) hlc (ix2 a b)
      ((contrEquiv1 d K (contr_rank d hlc) (contr_size d hlc)).symm q)
    rw [contrEquiv1_symm_val] at h
    exact h
  | ⟨0, _⟩ =>
    obtain ⟨lc, rc, ln, rn, lb, rb, wf⟩ := d
    dsimp only at hlc hrc hln hrn hlb hrb
    subst hlc hrc hln hrn hlb hrb
    simp [DotDims.lhsIdx]
    rfl

/-- The right operand is read at (contraction position, column of the result). -/
theorem rhs_plain (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (q : Fin K) :
    d.rhsIdx (ix2 a b) ((contrEquiv1 d K (contr_rank d hlc) (contr_size d hlc)).symm q) = ix2 q b := by
  funext ax
  apply Fin.ext
  match ax with
  | ⟨0, _⟩ =>
    have h := DotDims.rhsIdx_val_of_single d (cr := (0 : Fin 2)) hrc (ix2 a b)
      ((contrEquiv1 d K (contr_rank d hlc) (contr_size d hlc)).symm q)
    rw [contrEquiv1_symm_val] at h
    exact h
  | ⟨1, _⟩ =>
    obtain ⟨lc, rc, ln, rn, lb, rb, wf⟩ := d
    dsimp only at hlc hrc hln hrn hlb hrb
    subst hlc hrc hln hrn hlb hrb
    simp [DotDims.rhsIdx]
    rfl

/-- The contraction's sum is the sum over the middle coordinate. -/
theorem plain_sum {β : Type*} [AddCommMonoid β] (hlc : d.lhsContracting = [1]) (hrc : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → β) (a : Fin M) (b : Fin N) :
    ∑ k : d.contr.Idx, f (d.lhsIdx (ix2 a b) k) (d.rhsIdx (ix2 a b) k) = ∑ q : Fin K, f (ix2 a q) (ix2 q b) := by
  rw [← Equiv.sum_comp (contrEquiv1 d K (contr_rank d hlc) (contr_size d hlc)).symm]
  refine Finset.sum_congr rfl fun q _ => ?_
  rw [lhs_plain d hlc hrc hln hrn hlb hrb a b q, rhs_plain d hlc hrc hln hrn hlb hrb a b q]

end Cert.LibPlainDot

end
-- ==== Proof.KPayload.lean ====
/-
  The kernel body's arithmetic read at one entry of its block.  The body loads a block of 8192 rows of positions, the
  whole 42-by-7 matrix and the one row of bias, multiplies the first two into a zero accumulator and adds the row
  to every row of the product.  At the ideal values the changes of float format are the identity, the product into a
  zero accumulator is the plain sum over the 42 middle coordinates, and the broadcast reads the one row.
-/
import proofs.«170957_j22376779612772_1_alg».proof.Proof.Gen.KernelIdeal.Skeleton
import proofs.«170957_j22376779612772_1_alg».proof.Proof.LibPlainDot
import Idealize.ShloMosaic.Lib.ValueLayout
import Idealize.ShloMosaic.Lib.Pipeline.Value

noncomputable section

open scoped BigOperators

namespace Cert.KernelIdeal.KPayload

open Cert.KernelIdeal Cert.KernelIdeal.Gen Idealize.ShloMosaic Idealize.ShloMosaic.ValueIdx

/-- Entry (p, q) of the block the body stores: row p of the positions' block against column q of the matrix, plus
    the bias at q. -/
theorem pay_apply (x0 : Vec Ideal S8192x42 .f32) (x1 : Vec Ideal S42x7 .f32) (x2 : Vec Ideal S1x7 .f32) (p : Fin 8192) (q : Fin 7) :
    k0_pay1 (F := Ideal) x0 x1 x2 (ix2 p q) = (∑ k : Fin 42, x0 (ix2 p k) * x1 (ix2 k q)) + x2 (ix2 (0 : Fin 1) q) := by
  unfold k0_pay1
  refine (addf_apply _ _ (ix2 p q)).trans ?_
  refine congr (congrArg HAdd.hAdd ?_) ?_
  · refine (Ideal.matmul_constant_zero_apply dot_S8192x42_S42x7_S8192x7_1_0_0_1_n_n none _ _ (ix2 p q)).trans ?_
    refine (Cert.LibPlainDot.plain_sum dot_S8192x42_S42x7_S8192x7_1_0_0_1_n_n rfl rfl rfl rfl rfl rfl
      (fun i j => (truncf .bf16 x0 bitsLt_bf16_f32 : FVec Ideal S8192x42 .bf16) i
        * (truncf .bf16 (shapeCast S42x7 x1 shapeCasts_S42x7_S42x7) bitsLt_bf16_f32 : FVec Ideal S42x7 .bf16) j) p q).trans ?_
    refine Finset.sum_congr rfl fun k _ => ?_
    rw [truncf_apply, truncf_apply, shapeCast_self]
  · refine (broadcastTo_1b_ab_apply _ _ p q).trans ?_
    rw [shapeCast_self]

end Cert.KernelIdeal.KPayload

end
-- ==== Proof.KFused.lean ====
/-
  The fused matrix the host prepares for the kernel, and the bias as one row, read at an entry.  The host slices the
  weights W (7 rows, 111 columns) into the first 42 columns W₁ and the last 69 columns W₂, and forms
  W₁ᵀ + Mᵀ·W₂ᵀ  with the mask table M (69 rows, 42 columns): entry (k, n) is  W(n, k) + Σⱼ M(j, k) · W(n, 42 + j).
-/
import proofs.«170957_j22376779612772_1_alg».proof.Proof.Gen.KernelIdeal
import proofs.«170957_j22376779612772_1_alg».proof.Proof.LibPlainDot
import Idealize.ShloMosaic.Lib.ValueLayout
import Idealize.ShloMosaic.Lib.Pipeline.Value

noncomputable section

open scoped BigOperators

namespace Cert.KernelIdeal.KFused

open Cert.KernelIdeal Cert.KernelIdeal.Gen Idealize.ShloMosaic Idealize.ShloMosaic.ValueIdx

variable {F : FTy → Type} [FloatOps F]

/-- The table of window masks: row `j` marks the board cells of window `j`. -/
def maskTable : (⟨S69x42, .f32⟩ : BufTy).Contents (Elt F) := fun i => FloatOps.ofBits .f32 (lit0 (S69x42.rowMajor i))

/-- The fused matrix  W₁ᵀ + Mᵀ·W₂ᵀ. -/
def fusedW (w : (⟨S7x111, .f32⟩ : BufTy).Contents (Elt F)) : (⟨S42x7, .f32⟩ : BufTy).Contents (Elt F) :=
  addf
    (transpose S42x7 [1, 0] (extractStridedSlice S7x42 ![0, 0] w slices_S7x111_S7x42_0_0) transposes_S7x42_S42x7_1_0)
    (Host.dotGeneral dot_S42x69_S69x7_S42x7_1_0_0_1_n_n none
      (transpose S42x69 [1, 0] (maskTable (F := F)) transposes_S69x42_S42x69_1_0)
      (transpose S69x7 [1, 0] (extractStridedSlice S7x69 ![0, 42] w slices_S7x111_S7x69_0_42) transposes_S7x69_S69x7_1_0))

/-- The bias as one row. -/
def biasRow (b : (⟨S7, .f32⟩ : BufTy).Contents (Elt F)) : (⟨S1x7, .f32⟩ : BufTy).Contents (Elt F) :=
  shapeCast S1x7 b shapeCasts_S7_S1x7

/-- Entry (k, n) of the fused matrix at the ideal values. -/
theorem fusedW_apply (w : S7x111.Idx → EReal) (k : Fin 42) (n : Fin 7) :
    fusedW (F := Ideal) w (ix2 k n)
      = w (ix2 n ⟨k.val, by have := k.isLt; omega⟩)
        + ∑ j : Fin 69, maskTable (F := Ideal) (ix2 j k) * w (ix2 n ⟨42 + j.val, by have := j.isLt; omega⟩) := by
  unfold fusedW
  refine (addf_apply _ _ (ix2 k n)).trans ?_
  refine congr (congrArg HAdd.hAdd ?_) ?_
  · refine (transpose_ix2_apply _ _ k n).trans ?_
    exact slice2_axis1_apply 0 w slices_S7x111_S7x42_0_0 n k _ (Nat.zero_add _).symm
  · show FloatOps.dotGeneral _ _ _ _ _ _ = _
    refine (Ideal.dotGeneral_apply dot_S42x69_S69x7_S42x7_1_0_0_1_n_n none _ _ _ (ix2 k n)).trans ?_
    refine (Cert.LibPlainDot.plain_sum dot_S42x69_S69x7_S42x7_1_0_0_1_n_n rfl rfl rfl rfl rfl rfl
      (fun a b => (transpose S42x69 [1, 0] (maskTable (F := Ideal)) transposes_S69x42_S42x69_1_0 : S42x69.Idx → EReal) a
        * (transpose S69x7 [1, 0] (extractStridedSlice S7x69 ![0, 42] w slices_S7x111_S7x69_0_42) transposes_S7x69_S69x7_1_0 : S69x7.Idx → EReal) b) k n).trans ?_
    refine Finset.sum_congr rfl fun j _ => ?_
    rw [transpose_ix2_apply, transpose_ix2_apply]
    exact congrArg _ (slice2_axis1_apply 42 w slices_S7x111_S7x69_0_42 n j _ rfl)

/-- The one row of bias at column n. -/
theorem biasRow_apply (b : S7.Idx → EReal) (n : Fin 7) : biasRow (F := Ideal) b (ix2 (0 : Fin 1) n) = b (ix1 n) :=
  shapeCast_a_1a_apply b shapeCasts_S7_S1x7 0 n

end Cert.KernelIdeal.KFused

end
-- ==== Proof.KHost.lean ====
/-
  What the kernel's region finds in its second and third arrays.  Before the region the host slices the weights into
  their first 42 columns W₁ and last 69 columns W₂, transposes both, multiplies the transposed mask table by W₂ᵀ and
  adds W₁ᵀ: the fused matrix  W₁ᵀ + Mᵀ·W₂ᵀ  of 42 rows and 7 columns; and it reshapes the bias to one row.
  The first array is the positions as launched.
-/
import proofs.«170957_j22376779612772_1_alg».proof.Proof.Gen.KernelIdeal.Frame
import proofs.«170957_j22376779612772_1_alg».proof.Proof.KFused
import Idealize.ShloMosaic.Lib.StableHlo.Run

noncomputable section

namespace Cert.KernelIdeal.KHost

open Cert.KernelIdeal Cert.KernelIdeal.Gen Cert.KernelIdeal.KFused Idealize.ShloMosaic Idealize.ShloMosaic.TcCoe Idealize.SL.Sem Idealize.ShloMosaic.StableHlo

variable {F : FTy → Type} [FloatOps F]

variable (m : (ℓ : Loc nD τ sig) → Buf (Elt F) ℓ)

/-- The region's second array is the fused matrix of the weights as launched. -/
theorem V_fused (c : Dev nD) :
    (V m c main_call0_v6 : (⟨S42x7, .f32⟩ : BufTy).Contents (Elt F)) = fusedW (m ((c.tc : Thread nD τ).loc main_arg1)) := by
  dsimp only [Gen.V, Gen.hostOps0]
  unfold fusedW
  after_results
  rfl

/-- The region's third array is the bias as launched, as one row. -/
theorem V_bias (c : Dev nD) :
    (V m c main_call0_v7 : (⟨S1x7, .f32⟩ : BufTy).Contents (Elt F)) = biasRow (m ((c.tc : Thread nD τ).loc main_arg2)) := by
  dsimp only [Gen.V, Gen.hostOps0]
  unfold biasRow
  after_results
  rfl

end Cert.KernelIdeal.KHost

end
-- ==== Proof.KValue.lean ====
/-
  The kernel's result array as one function of its arguments.  Grid point t handles rows 8192·t … 8192·t + 8191: it
  reads that block of the positions, the whole fused matrix and the whole bias row, and writes back the block's
  product with the matrix plus the bias.  The 64 blocks tile the 524288 rows, so after the run entry (r, n) of the
  result is  Σₖ x(r, k) · Wf(k, n) + bias(n)  with Wf the fused matrix the host prepared.
-/
import proofs.«170957_j22376779612772_1_alg».proof.Proof.Gen.KernelIdeal.Value
import proofs.«170957_j22376779612772_1_alg».proof.Proof.KPayload
import proofs.«170957_j22376779612772_1_alg».proof.Proof.KHost
import Idealize.ShloMosaic.Lib.Pipeline.Value
import Idealize.ShloMosaic.Lib.Tactic

noncomputable section

open scoped BigOperators

namespace Cert.KernelIdeal.KValue

open Cert.KernelIdeal Cert.KernelIdeal.Gen Cert.KernelIdeal.Value Cert.KernelIdeal.KFused
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The row and the column of an index of the result. -/
def rowOf (i : S524288x7.Idx) : Fin 524288 := ⟨(i 0).val, idx2_lt0 i⟩
def colOf (i : S524288x7.Idx) : Fin 7 := ⟨(i 1).val, idx2_lt1 i⟩

/-- The product of the positions with a 42-by-7 matrix, plus a row added to every row. -/
def G (X : S524288x42.Idx → EReal) (Wf : S42x7.Idx → EReal) (B : S1x7.Idx → EReal) : S524288x7.Idx → EReal :=
  fun i => (∑ k : Fin 42, X (ix2 (rowOf i) k) * Wf (ix2 k (colOf i))) + B (ix2 (0 : Fin 1) (colOf i))

/-- The index maps over the grid: the positions and the result move down one block per point, the matrix and the
    bias row stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of a block: when the block of positions holds, in its row, the row of the array the entry belongs
    to, the body's value there is the array function's. -/
theorem point (x0 : Vec Ideal S8192x42 .f32) (x1 : Vec Ideal S42x7 .f32) (x2 : Vec Ideal S1x7 .f32)
    (X : S524288x42.Idx → EReal) (Wf : S42x7.Idx → EReal) (B : S1x7.Idx → EReal) (y : S8192x7.Idx) (i : S524288x7.Idx)
    (h0 : ∀ k : Fin 42, x0 (ix2 (⟨(y 0).val, idx2_lt0 y⟩ : Fin 8192) k) = X (ix2 (rowOf i) k))
    (h1 : x1 = Wf) (h2 : x2 = B) (hcol : (i 1).val = (y 1).val) :
    k0_pay1 (F := Ideal) x0 x1 x2 y = G X Wf B i := by
  subst h1 h2
  have hy : y = ix2 (⟨(y 0).val, idx2_lt0 y⟩ : Fin 8192) (⟨(y 1).val, idx2_lt1 y⟩ : Fin 7) := by
    funext a
    match a with
    | ⟨0, _⟩ => rfl
    | ⟨1, _⟩ => rfl
  have hc : colOf i = ⟨(y 1).val, idx2_lt1 y⟩ := Fin.ext hcol
  refine (congrArg (k0_pay1 (F := Ideal) x0 x1 x2) hy).trans ?_
  refine (KPayload.pay_apply x0 x1 x2 _ _).trans ?_
  unfold G
  rw [hc]
  exact congrArg (· + x2 (ix2 (0 : Fin 1) (⟨(y 1).val, idx2_lt1 y⟩ : Fin 7))) (Finset.sum_congr rfl fun k _ => by rw [h0 k])

/-- What point `t` writes back is block `t` of the array function of the arrays as the region finds them. -/
theorem flushed_eq (c : Dev nD) (t : Fin cfg0.N) :
    (dats m 0 c).flushed 3 t
      = ((cfg0.win 3).blk t).view.read (Elt Ideal) (G (V m c main_arg0) (V m c main_call0_v6) (V m c main_call0_v7)) := by
  rw [Value.flushed3]
  unfold out0_3
  rw [View.canon_unit_zero hz]
  simp only [View.ld_unit_zero (S := S8192x42) hz, View.ld_unit_zero (S := S42x7) hz, View.ld_unit_zero (S := S1x7) hz]
  obtain ⟨e00, e01, e10, e11, e20, e21, e30, e31⟩ := idx_facts t
  have h1 : (iblk m c 1 t : Vec Ideal S42x7 .f32) = V m c main_call0_v6 := by
    funext y
    show V m c main_call0_v6 (((cfg0.win 1).blk t).view.emb y) = V m c main_call0_v6 y
    refine congrArg _ (funext fun a => Fin.ext ?_)
    match a with
    | ⟨0, _⟩ => show win0_1.index t (0 : Fin 2) * 42 + 1 * (y 0).val = (y 0).val; omega
    | ⟨1, _⟩ => show win0_1.index t (1 : Fin 2) * 7 + 1 * (y 1).val = (y 1).val; omega
  have h2 : (iblk m c 2 t : Vec Ideal S1x7 .f32) = V m c main_call0_v7 := by
    funext y
    show V m c main_call0_v7 (((cfg0.win 2).blk t).view.emb y) = V m c main_call0_v7 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 7 + 1 * (y 1).val = (y 1).val; omega
  funext j
  show k0_pay1 (iblk m c 0 t) (iblk m c 1 t) (iblk m c 2 t) j
    = G (V m c main_arg0) (V m c main_call0_v6) (V m c main_call0_v7) (((cfg0.win 3).blk t).view.emb j)
  refine point (iblk m c 0 t) (iblk m c 1 t) (iblk m c 2 t) (V m c main_arg0) (V m c main_call0_v6) (V m c main_call0_v7) j
    (((cfg0.win 3).blk t).view.emb j) (fun k => ?_) h1 h2 ?_
  · show V m c main_arg0 (((cfg0.win 0).blk t).view.emb (ix2 (⟨(j 0).val, idx2_lt0 j⟩ : Fin 8192) k))
      = V m c main_arg0 (ix2 (rowOf (((cfg0.win 3).blk t).view.emb j)) k)
    refine congrArg _ (funext fun a => Fin.ext ?_)
    match a with
    | ⟨0, _⟩ => show win0_0.index t (0 : Fin 2) * 8192 + 1 * (j 0).val = win0_3.index t (0 : Fin 2) * 8192 + 1 * (j 0).val; omega
    | ⟨1, _⟩ => show win0_0.index t (1 : Fin 2) * 42 + 1 * k.val = k.val; omega
  · show win0_3.index t (1 : Fin 2) * 7 + 1 * (j 1).val = (j 1).val
    omega

/-- An index of the result is in point `t`'s block iff each coordinate is in the block's range on its axis. -/
theorem mem_blk (t : Fin cfg0.N) (i : S524288x7.Idx) :
    i ∈ ((cfg0.win 3).blk t).view.set ↔ ∀ a : Fin 2, win0_3.index t a * S8192x7.size a ≤ (i a).val
      ∧ (i a).val < win0_3.index t a * S8192x7.size a + S8192x7.size a := by
  show i ∈ ((View.whole main_v0).slice (win0_3.rect t)).set ↔ _
  rw [View.set_slice_whole, Rect.mem_set_unit]
  exact Iff.rfl

/-- Every row belongs to the block of the point numbered by the row's quotient by 8192. -/
theorem cover (i : S524288x7.Idx) : ∃ t : Fin cfg0.N, (cfg0.win 3).flush t = true ∧ i ∈ ((cfg0.win 3).blk t).view.set := by
  have hi0 : (i 0).val < 524288 := (i 0).isLt
  have hi1 : (i 1).val < 7 := (i 1).isLt
  have hN : cfg0.N = 64 := N_0
  obtain ⟨t, ht⟩ : ∃ t : Fin cfg0.N, t.val = (i 0).val / 8192 := ⟨⟨(i 0).val / 8192, by rw [hN]; omega⟩, rfl⟩
  obtain ⟨-, -, -, -, -, -, e30, e31⟩ := idx_facts t
  refine ⟨t, flush0_3 t, ?_⟩
  rw [mem_blk]
  intro a
  match a with
  | ⟨0, _⟩ =>
    show win0_3.index t (0 : Fin 2) * 8192 ≤ (i 0).val ∧ (i 0).val < win0_3.index t (0 : Fin 2) * 8192 + 8192
    omega
  | ⟨1, _⟩ =>
    show win0_3.index t (1 : Fin 2) * 7 ≤ (i 1).val ∧ (i 1).val < win0_3.index t (1 : Fin 2) * 7 + 7
    omega

/-- The result array after the run, as a function of the arguments as launched. -/
theorem final (c : Dev nD) : (dats m 0 c).arrAt 3 cfg0.N
    = G (m ((c : Thread nD τ).loc main_arg0)) (fusedW (m ((c : Thread nD τ).loc main_arg1))) (biasRow (m ((c : Thread nD τ).loc main_arg2))) := by
  have h := (dats m 0 c).arrAt_eq_of_cover 3 (G (V m c main_arg0) (V m c main_call0_v6) (V m c main_call0_v7))
    (fun t _ => flushed_eq m c t) cover
  rw [V_main_arg0, KHost.V_fused, KHost.V_bias] at h
  exact h

/-- The kernel's run: the result array at the array function of the arguments, the arguments unchanged. -/
theorem run : θ_run defs (onTc (τ := τ) (main (F := Ideal))) ⟨m, fun _ => 0, ρ⟩ fun r => ∀ c : Dev nD,
      r.2.mem ((c : Thread nD τ).loc main_v0)
          = G (m ((c : Thread nD τ).loc main_arg0)) (fusedW (m ((c : Thread nD τ).loc main_arg1))) (biasRow (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

/-- Entry (r, n) of the kernel's result in the weights, the mask table and the bias. -/
theorem G_apply (X : S524288x42.Idx → EReal) (w : S7x111.Idx → EReal) (b : S7.Idx → EReal) (r : Fin 524288) (n : Fin 7) :
    G X (fusedW (F := Ideal) w) (biasRow (F := Ideal) b) (ix2 r n)
      = (∑ k : Fin 42, X (ix2 r k) * (w (ix2 n ⟨k.val, by have := k.isLt; omega⟩)
          + ∑ j : Fin 69, maskTable (F := Ideal) (ix2 j k) * w (ix2 n ⟨42 + j.val, by have := j.isLt; omega⟩)))
        + b (ix1 n) := by
  show (∑ k : Fin 42, X (ix2 r k) * fusedW (F := Ideal) w (ix2 k n)) + biasRow (F := Ideal) b (ix2 (0 : Fin 1) n) = _
  rw [biasRow_apply]
  exact congrArg (· + b (ix1 n)) (Finset.sum_congr rfl fun k _ => by rw [fusedW_apply])

end Cert.KernelIdeal.KValue

end
-- ==== Proof.Finite.lean ====
/-
  What the precondition gives: every entry of the three arguments is a real number.  The precondition is the
  conjunction of three tests, one per argument, each the conjunction over all entries of  |entry| < +∞;  an extended
  real whose absolute value is below +∞ is neither infinity.
-/
import proofs.«170957_j22376779612772_1_alg».proof.Pre_finite_inputs
import proofs.«170957_j22376779612772_1_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Cert.Pre_finite_inputs.Gen Idealize.ShloMosaic

instance : Subsingleton S_.Idx := ⟨fun a b => funext fun d => d.elim0⟩

/-- An extended real that passes the test  |a| < +∞  is a real. -/
theorem real_of_flag (a : EReal)
    (h : FloatOps.cmpf (F := Ideal) (φ := .f32) .olt (FloatOps.hostAbsf (F := Ideal) (φ := .f32) a) (Ideal.ofBits .f32 0x7F800000#32) = 1#1) :
    ∃ r : ℝ, a = (r : EReal) := by
  have htop : Ideal.ofBits .f32 0x7F800000#32 = ⊤ := by simp [Ideal.ofBits, Ideal.ieee]
  rw [htop] at h
  have h' : Ideal.cmp .olt (max a (-a)) ⊤ = 1#1 := h
  unfold Ideal.cmp at h'
  have hlt : max a (-a) < ⊤ := by
    by_contra hn
    simp [hn] at h'
  induction a using EReal.rec with
  | bot => simp at hlt
  | top => simp at hlt
  | coe r => exact ⟨r, rfl⟩

/-- Under the precondition every entry of every argument is a real. -/
theorem reals_of_pre (x : FVec Ideal S524288x42 .f32) (w : FVec Ideal S7x111 .f32) (b : FVec Ideal S7 .f32)
    (h : fn (F := Ideal) x w b = fun _ => 1#1) :
    (∀ i, ∃ r : ℝ, x i = (r : EReal)) ∧ (∀ i, ∃ r : ℝ, w i = (r : EReal)) ∧ (∀ i, ∃ r : ℝ, b i = (r : EReal)) := by
  have h0 := congrFun h ValueIdx.ix0
  dsimp only [fn] at h0
  obtain ⟨h01, h2⟩ := IntOp.andi_eq_one.1 h0
  obtain ⟨hx, hw⟩ := IntOp.andi_eq_one.1 h01
  refine ⟨fun i => real_of_flag _ ?_, fun i => real_of_flag _ ?_, fun i => real_of_flag _ ?_⟩
  · exact Host.reduce_andi_all _ _ _ _ _ hx i
  · exact Host.reduce_andi_all _ _ _ _ _ hw i
  · exact Host.reduce_andi_all _ _ _ _ _ h2 i

end Cert.Pre_finite_inputs.Finite

end
-- ==== Proof.Algebra.lean ====
/-
  The one law that joins the two programs.  A row x of 42 board cells is multiplied, in the kernel, by the fused
  matrix  W₁ᵀ + Mᵀ·W₂ᵀ  (the first 42 columns of the weights, plus the mask table times the last 69); in the reference
  the row is first extended by its 69 window sums  x·Mᵀ  and the extended row of 111 features is multiplied by the
  whole weight row.  Over the reals the two are equal: split the sum over the 111 features at 42, distribute the
  products over the inner sums and exchange the two summations.  Distributivity fails at infinities of the extended
  reals, so the law is stated for real entries, embedded.
-/
import Idealize.ShloMosaic.PureOps.Ideal.Laws

open scoped BigOperators

namespace Cert.Fused

/-- The embedding of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The extended row: the cells, then the window sums. -/
def features {α : Type*} [AddCommMonoid α] [Mul α] (x : Fin 42 → α) (M : Fin 69 → Fin 42 → α) : Fin (42 + 69) → α :=
  Fin.addCases x (fun j => ∑ k, x k * M j k)

/-- Over the reals: the row times the fused matrix column is the extended row times the weight row. -/
theorem fused_real (x : Fin 42 → ℝ) (w : Fin (42 + 69) → ℝ) (M : Fin 69 → Fin 42 → ℝ) :
    ∑ k, x k * (w (Fin.castAdd 69 k) + ∑ j, M j k * w (Fin.natAdd 42 j)) = ∑ q, features x M q * w q := by
  rw [Fin.sum_univ_add]
  simp only [features, Fin.addCases_left, Fin.addCases_right, mul_add, Finset.sum_add_distrib, Finset.mul_sum, Finset.sum_mul]
  congr 1
  rw [Finset.sum_comm]
  exact Finset.sum_congr rfl fun j _ => Finset.sum_congr rfl fun k _ => by ring

/-- The extended row of embedded reals is the embedded extended row. -/
theorem features_coe (x : Fin 42 → ℝ) (M : Fin 69 → Fin 42 → ℝ) (q : Fin (42 + 69)) :
    features (fun k => (x k : EReal)) (fun j k => (M j k : EReal)) q = ((features x M q : ℝ) : EReal) := by
  unfold features
  refine Fin.addCases (fun k => ?_) (fun j => ?_) q
  · rw [Fin.addCases_left, Fin.addCases_left]
  · rw [Fin.addCases_right, Fin.addCases_right, coe_sum]
    exact Finset.sum_congr rfl fun k _ => (EReal.coe_mul _ _).symm

/-- The same law on the extended reals, for real entries. -/
theorem fused_ereal (x : Fin 42 → ℝ) (w : Fin (42 + 69) → ℝ) (M : Fin 69 → Fin 42 → ℝ) :
    ∑ k, (x k : EReal) * ((w (Fin.castAdd 69 k) : EReal) + ∑ j, (M j k : EReal) * (w (Fin.natAdd 42 j) : EReal))
      = ∑ q, features (fun k => (x k : EReal)) (fun j k => (M j k : EReal)) q * (w q : EReal) := by
  have h := congrArg (fun r : ℝ => (r : EReal)) (fused_real x w M)
  simp only [coe_sum, EReal.coe_mul, EReal.coe_add] at h
  rw [h]
  exact Finset.sum_congr rfl fun q _ => by rw [features_coe]

/-- The extended row indexed by the 111 feature positions: below 42 a cell, from 42 on a window sum. -/
def feats {α : Type*} [AddCommMonoid α] [Mul α] (x : Fin 42 → α) (M : Fin 69 → Fin 42 → α) (q : Fin 111) : α :=
  if h : q.val < 42 then x ⟨q.val, h⟩ else ∑ k, x k * M ⟨q.val - 42, by have := q.isLt; omega⟩ k

theorem feats_eq {α : Type*} [AddCommMonoid α] [Mul α] (x : Fin 42 → α) (M : Fin 69 → Fin 42 → α) (q : Fin (42 + 69)) :
    feats x M q = features x M q := by
  unfold features
  refine Fin.addCases (fun k => ?_) (fun j => ?_) q
  · rw [Fin.addCases_left]
    unfold feats
    have hk : (Fin.castAdd 69 k).val < 42 := k.isLt
    rw [dif_pos hk]
    rfl
  · rw [Fin.addCases_right]
    unfold feats
    have hj : ¬ (Fin.natAdd 42 j).val < 42 := by simp
    rw [dif_neg hj]
    refine Finset.sum_congr rfl fun k _ => ?_
    congr 2
    apply Fin.ext
    simp

/-- The law with the features indexed by position: for real entries, the row times the fused column — the weight
    at the cell's position plus the masked sum of the weights at the window positions — is the extended row times
    the weight row. -/
theorem fused (x : Fin 42 → ℝ) (w : Fin 111 → ℝ) (M : Fin 69 → Fin 42 → ℝ) :
    ∑ k : Fin 42, (x k : EReal) * ((w ⟨k.val, by have := k.isLt; omega⟩ : EReal)
        + ∑ j : Fin 69, (M j k : EReal) * (w ⟨42 + j.val, by have := j.isLt; omega⟩ : EReal))
      = ∑ q : Fin 111, feats (fun k => (x k : EReal)) (fun j k => (M j k : EReal)) q * (w q : EReal) := by
  refine (fused_ereal x w M).trans ?_
  exact Finset.sum_congr rfl fun q _ => by rw [feats_eq]

end Cert.Fused
-- ==== Proof.RefRead.lean ====
/-
  The reference's result read at one entry.  At row r and output column n it is the sum over the 111 feature
  positions q of  feature(r, q) · W(n, q), plus the bias b(n);  the feature at a position below 42 is the board
  cell x(r, q), and at a position 42 + j it is the window sum  Σₖ x(r, k) · M(j, k)  against row j of the mask table.
  Each step reads one host operation at an index: the two matrix products as sums over their middle coordinate, the
  transposes by swapping coordinates, the side-by-side join by the column's position, the two broadcasts of the bias.
-/
import proofs.«170957_j22376779612772_1_alg».proof.Proof.RefRun
import proofs.«170957_j22376779612772_1_alg».proof.Proof.LibPlainDot
import proofs.«170957_j22376779612772_1_alg».proof.Proof.Algebra
import Idealize.ShloMosaic.Lib.ValueLayout
import Idealize.ShloMosaic.Lib.Pipeline.Value

noncomputable section

open scoped BigOperators

namespace Cert.ReferenceIdeal.RefRead

open Cert.ReferenceIdeal Cert.ReferenceIdeal.Gen Cert.ReferenceIdeal.RefRun Idealize.ShloMosaic Idealize.ShloMosaic.ValueIdx

/-- The joined array in its first 42 columns is the positions. -/
theorem joined_left (x : S524288x42.Idx → EReal) (s : S524288x69.Idx → EReal) (r : Fin 524288) (q : Fin 111) (h : q.val < 42) :
    joined (F := Ideal) x s (ix2 r q) = x (ix2 r ⟨q.val, h⟩) := by
  unfold joined
  refine concatenate_pair_apply_left (1 : Fin 2) x s _ (ix2 r q) rfl (ix2 r ⟨q.val, h⟩) (fun b => ?_)
  match b with
  | ⟨0, _⟩ => rfl
  | ⟨1, _⟩ => rfl

/-- From column 42 on it is the window sums, 42 columns to the left. -/
theorem joined_right (x : S524288x42.Idx → EReal) (s : S524288x69.Idx → EReal) (r : Fin 524288) (q : Fin 111) (h : 42 ≤ q.val) :
    joined (F := Ideal) x s (ix2 r q) = s (ix2 r ⟨q.val - 42, by have := q.isLt; omega⟩) := by
  unfold joined
  refine concatenate_pair_apply_right (1 : Fin 2) x s _ (ix2 r q) rfl rfl (ix2 r ⟨q.val - 42, by have := q.isLt; omega⟩) (fun b hb => ?_) ?_
  · match b with
    | ⟨0, _⟩ => rfl
    | ⟨1, _⟩ => exact absurd rfl hb
  · show q.val - 42 + 42 = q.val
    omega

/-- A window sum: the row of positions against a row of the mask table. -/
theorem sums_apply (x : S524288x42.Idx → EReal) (Mt : S69x42.Idx → EReal) (r : Fin 524288) (j : Fin 69) :
    Host.dotGeneral (F := Ideal) (φ₁ := .f32) (φ₂ := .f32) dot_S524288x42_S42x69_S524288x69_1_0_0_1_n_n none x
        (transpose S42x69 [1, 0] Mt transposes_S69x42_S42x69_1_0) (ix2 r j)
      = ∑ k : Fin 42, x (ix2 r k) * Mt (ix2 j k) := by
  show FloatOps.dotGeneral _ _ _ _ _ _ = _
  rw [Ideal.dotGeneral_apply]
  rw [Cert.LibPlainDot.plain_sum dot_S524288x42_S42x69_S524288x69_1_0_0_1_n_n rfl rfl rfl rfl rfl rfl
    (fun a b => x a * transpose S42x69 [1, 0] Mt transposes_S69x42_S42x69_1_0 b) r j]
  refine Finset.sum_congr rfl fun k _ => ?_
  rw [transpose_ix2_apply]

/-- The product of the joined features with the transposed weights. -/
theorem out_apply (f : S524288x111.Idx → EReal) (w : S7x111.Idx → EReal) (r : Fin 524288) (n : Fin 7) :
    Host.dotGeneral (F := Ideal) (φ₁ := .f32) (φ₂ := .f32) dot_S524288x111_S111x7_S524288x7_1_0_0_1_n_n none f
        (transpose S111x7 [1, 0] w transposes_S7x111_S111x7_1_0) (ix2 r n)
      = ∑ q : Fin 111, f (ix2 r q) * w (ix2 n q) := by
  show FloatOps.dotGeneral _ _ _ _ _ _ = _
  rw [Ideal.dotGeneral_apply]
  rw [Cert.LibPlainDot.plain_sum dot_S524288x111_S111x7_S524288x7_1_0_0_1_n_n rfl rfl rfl rfl rfl rfl
    (fun a b => f a * transpose S111x7 [1, 0] w transposes_S7x111_S111x7_1_0 b) r n]
  refine Finset.sum_congr rfl fun q _ => ?_
  rw [transpose_ix2_apply]

/-- The bias broadcast to one row and then over all rows reads the bias at the column. -/
theorem bias_apply (b : S7.Idx → EReal) (r : Fin 524288) (n : Fin 7) :
    broadcastInDim S524288x7 ![0, 1] bcast_S1x7_S524288x7_0_1 (broadcastInDim S1x7 ![1] bcast_S7_S1x7_1 b) (ix2 r n) = b (ix1 n) := by
  refine (broadcastInDim_apply _ _ _ (ix2 r n) (ix2 (0 : Fin 1) n) (fun a => ?_)).trans ?_
  · match a with
    | ⟨0, _⟩ => rfl
    | ⟨1, _⟩ => rfl
  · refine broadcastInDim_apply _ _ _ (ix2 (0 : Fin 1) n) (ix1 n) (fun a => ?_)
    match a with
    | ⟨0, _⟩ => rfl

/-- The reference's result at row `r`, column `n`. -/
theorem result_apply (x : S524288x42.Idx → EReal) (w : S7x111.Idx → EReal) (b : S7.Idx → EReal) (r : Fin 524288) (n : Fin 7) :
    result (F := Ideal) x w b (ix2 r n)
      = (∑ q : Fin 111, Cert.Fused.feats (fun k => x (ix2 r k)) (fun j k => maskTable (F := Ideal) (ix2 j k)) q * w (ix2 n q))
        + b (ix1 n) := by
  unfold result
  rw [addf_apply, bias_apply, out_apply]
  refine congrArg (· + b (ix1 n)) (Finset.sum_congr rfl fun q _ => congrArg (· * w (ix2 n q)) ?_)
  unfold Cert.Fused.feats
  by_cases h : q.val < 42
  · rw [dif_pos h, joined_left _ _ r q h]
  · rw [dif_neg h, joined_right _ _ r q (Nat.le_of_not_lt h), sums_apply]

end Cert.ReferenceIdeal.RefRead

end
-- ==== Proof.Tables.lean ====
/-
  The table of window masks is printed once in each program.  The two printings hold the same 2898 words, each the
  word of 1.0 or of 0.0, so at the ideal values the two tables are one array of real numbers.
-/
import proofs.«170957_j22376779612772_1_alg».proof.Proof.KFused
import proofs.«170957_j22376779612772_1_alg».proof.Proof.RefRun

noncomputable section

namespace Cert.Tables

open Idealize.ShloMosaic

/-- The two printed tables agree word by word. -/
theorem lit_eq : ∀ i : Fin 2898, Cert.KernelIdeal.lit0 i = Cert.ReferenceIdeal.lit0 i := by decide +kernel

/-- Every word of the table is that of 1.0 or of 0.0. -/
theorem lit_vals : ∀ i : Fin 2898, Cert.ReferenceIdeal.lit0 i = 0x3F800000#32 ∨ Cert.ReferenceIdeal.lit0 i = 0x00000000#32 := by
  decide +kernel

/-- A pattern whose exponent field is not all ones denotes a real. -/
theorem ieee_real (e m : Nat) {w : Nat} (b : BitVec w) (h : (b.extractLsb' m e).toNat ≠ 2 ^ e - 1) :
    ∃ r : ℝ, Ideal.ieee e m b = (r : EReal) := by
  unfold Ideal.ieee
  simp only []
  rw [if_neg h]
  split <;> exact ⟨_, rfl⟩

/-- The two programs' mask tables are one array. -/
theorem mask_eq : Cert.KernelIdeal.KFused.maskTable (F := Ideal) = Cert.ReferenceIdeal.RefRun.maskTable (F := Ideal) := by
  funext i
  show Ideal.ofBits .f32 (Cert.KernelIdeal.lit0 (Cert.KernelIdeal.S69x42.rowMajor i))
    = Ideal.ofBits .f32 (Cert.ReferenceIdeal.lit0 (Cert.ReferenceIdeal.S69x42.rowMajor i))
  exact congrArg _ (lit_eq _)

/-- Every entry of the mask table is a real. -/
theorem mask_real (i : Cert.ReferenceIdeal.S69x42.Idx) : ∃ r : ℝ, Cert.ReferenceIdeal.RefRun.maskTable (F := Ideal) i = (r : EReal) := by
  show ∃ r : ℝ, Ideal.ieee 8 23 (Cert.ReferenceIdeal.lit0 (Cert.ReferenceIdeal.S69x42.rowMajor i)) = (r : EReal)
  rcases lit_vals (Cert.ReferenceIdeal.S69x42.rowMajor i) with h | h <;> rw [h]
  · exact ieee_real 8 23 _ (by decide)
  · exact ieee_real 8 23 _ (by decide)

end Cert.Tables

end
-- ==== Proof.Bridge.lean ====
/-
  The two results are one function of the arguments.  Entry (r, n) of the kernel's result is the row x(r, ·) against
  column n of the fused matrix, plus the bias; entry (r, n) of the reference's is the row extended by its window sums
  against row n of the weights, plus the bias.  For real entries the two sums are equal (the fused-matrix law), the
  mask table being the same array of reals in both programs.
-/
import proofs.«170957_j22376779612772_1_alg».proof.Proof.KValue
import proofs.«170957_j22376779612772_1_alg».proof.Proof.RefRead
import proofs.«170957_j22376779612772_1_alg».proof.Proof.Algebra
import proofs.«170957_j22376779612772_1_alg».proof.Proof.Tables

noncomputable section

open scoped BigOperators

namespace Cert.Bridge

open Idealize.ShloMosaic Idealize.ShloMosaic.ValueIdx

/-- For real positions and weights the reference's result is the kernel's array function. -/
theorem values_eq (x : (⟨2, ![524288, 42]⟩ : Shape).Idx → EReal) (w : (⟨2, ![7, 111]⟩ : Shape).Idx → EReal)
    (b : (⟨1, ![7]⟩ : Shape).Idx → EReal)
    (hx : ∀ i, ∃ r : ℝ, x i = (r : EReal)) (hw : ∀ i, ∃ r : ℝ, w i = (r : EReal)) :
    Cert.ReferenceIdeal.RefRun.result (F := Ideal) x w b
      = Cert.KernelIdeal.KValue.G x (Cert.KernelIdeal.KFused.fusedW (F := Ideal) w) (Cert.KernelIdeal.KFused.biasRow (F := Ideal) b) := by
  funext i
  obtain ⟨r, n, rfl⟩ : ∃ (r : Fin 524288) (n : Fin 7), i = ix2 r n := ⟨i 0, i 1, eq_ix2 i⟩
  rw [Cert.ReferenceIdeal.RefRead.result_apply, Cert.KernelIdeal.KValue.G_apply, Cert.Tables.mask_eq]
  refine congrArg (· + b (ix1 n)) ?_
  choose x' hx' using hx
  choose w' hw' using hw
  choose M' hM' using Cert.Tables.mask_real
  have h := Cert.Fused.fused (fun k => x' (ix2 r k)) (fun q => w' (ix2 n q)) (fun j k => M' (ix2 j k))
  simp only [← hx', ← hw', ← hM'] at h
  exact h.symm

end Cert.Bridge

end
-- ==== Proof.lean ====
/-
  The certificate of the fused connect-four feature layer.  The kernel computes  x · (W₁ᵀ + Mᵀ·W₂ᵀ) + b  block by block
  over the rows of the positions x, the fused 42-by-7 matrix prepared once by the host from the weights W = [W₁ | W₂] and
  the 0/1 table M of window masks; the reference computes  [x | x·Mᵀ] · Wᵀ + b.  Under the precondition every entry of
  x, W and b is a real number, and over the reals the two are equal by distributivity and an exchange of two finite sums
  (the table's entries are reals too).  The three frames: the two kernel programs' are the launch's frame run; the
  reference's is its straight-line run with the result dropped.  The idealization rewrote nothing, so it preserves
  the kernel trivially.
-/
import proofs.«170957_j22376779612772_1_alg».proof.Defs
import proofs.«170957_j22376779612772_1_alg».proof.Proof.Gen.Kernel
import proofs.«170957_j22376779612772_1_alg».proof.Proof.Gen.Kernel.Skeleton
import proofs.«170957_j22376779612772_1_alg».proof.Proof.Gen.Kernel.Launch
import proofs.«170957_j22376779612772_1_alg».proof.Proof.Gen.Kernel.Points
import proofs.«170957_j22376779612772_1_alg».proof.Proof.Gen.Kernel.Frame
import proofs.«170957_j22376779612772_1_alg».proof.Proof.Gen.KernelIdeal
import proofs.«170957_j22376779612772_1_alg».proof.Proof.Gen.KernelIdeal.Skeleton
import proofs.«170957_j22376779612772_1_alg».proof.Proof.Gen.KernelIdeal.Launch
import proofs.«170957_j22376779612772_1_alg».proof.Proof.Gen.KernelIdeal.Points
import proofs.«170957_j22376779612772_1_alg».proof.Proof.Gen.KernelIdeal.Frame
import proofs.«170957_j22376779612772_1_alg».proof.Proof.Gen.KernelIdeal.Value
import proofs.«170957_j22376779612772_1_alg».proof.Proof.Gen.ReferenceIdeal
import proofs.«170957_j22376779612772_1_alg».proof.Proof.Gen.Pre_finite_inputs
import proofs.«170957_j22376779612772_1_alg».proof.Proof.RefRun
import proofs.«170957_j22376779612772_1_alg».proof.Proof.KValue
import proofs.«170957_j22376779612772_1_alg».proof.Proof.Finite
import proofs.«170957_j22376779612772_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both programs end with the result at the kernel's array function of the arguments: the kernel by its blocks, the
    reference by the fused-matrix law, its arguments being the kernel's and all real. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  obtain ⟨hx, hw, -⟩ := Cert.Pre_finite_inputs.Finite.reals_of_pre _ _ _ (hpre c)
  exact Cert.Bridge.values_eq _ _ _ hx hw

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
